-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x96x56x56 : Shape := ⟨4, ![128, 96, 56, 56]⟩
abbrev S_ : Shape := ⟨0, ![]⟩

class Facts : Prop where
  bcast_S_S128x96x56x56 : S_.BroadcastsInDim S128x96x56x56 (![] : Fin 0 → Fin S128x96x56x56.rank)
  reducesTo_S128x96x56x56_S_d0_1_2_3 : S128x96x56x56.ReducesTo [0, 1, 2, 3] S_
  h_S_ : 0 < S_.numel

variable [Facts]

def fn {F : FTy → Type} [FloatOps F] (main_arg0 : FVec F S128x96x56x56 .f32) : IVec S_ 1 :=
  let main_v0 : FVec F S128x96x56x56 .f32 := Host.absf main_arg0
  let main_cst : FVec F S_ .f32 := constant S_ .f32 0x7F800000#32
  let main_v1 : FVec F S128x96x56x56 .f32 := broadcastInDim S128x96x56x56 ![] bcast_S_S128x96x56x56 main_cst
  let main_v2 : IVec S128x96x56x56 1 := cmpf .olt main_v0 main_v1
  let main_c : IVec S_ 1 := constantI S_ 1 1#1
  let main_v3 : IVec S_ 1 := (fun x v => Host.reduce IntOp.andi x v reducesTo_S128x96x56x56_S_d0_1_2_3 h_S_) main_v2 main_c
  main_v3
-- ==== Kernel.lean ====
abbrev S128x96x56x56 : Shape := ⟨4, ![128, 96, 56, 56]⟩
abbrev S128x301056 : Shape := ⟨2, ![128, 301056]⟩
abbrev S8x301056 : Shape := ⟨2, ![8, 301056]⟩
abbrev S1x100352 : Shape := ⟨2, ![1, 100352]⟩
abbrev S7x100352 : Shape := ⟨2, ![7, 100352]⟩
abbrev S8x100352 : Shape := ⟨2, ![8, 100352]⟩

abbrev nBuf : Space → Nat
  | .hbm => 4
  | .vmem => 4
  | .smem => 0
  | _ => 0

abbrev bufTy : (tb : Table) → Fin (tcTables nBuf tb) → BufTy
  | .hbm, ⟨0, _⟩ => ⟨S128x96x56x56, .f32⟩
  | .hbm, ⟨1, _⟩ => ⟨S128x301056, .f32⟩
  | .hbm, ⟨2, _⟩ => ⟨S128x301056, .f32⟩
  | .hbm, ⟨3, _⟩ => ⟨S128x96x56x56, .f32⟩
  | .local _ .vmem, ⟨0, _⟩ => ⟨S8x301056, .f32⟩
  | .local _ .vmem, ⟨1, _⟩ => ⟨S8x301056, .f32⟩
  | .local _ .vmem, ⟨2, _⟩ => ⟨S8x301056, .f32⟩
  | .local _ .vmem, ⟨3, _⟩ => ⟨S8x301056, .f32⟩
  | _, _ => ⟨S128x96x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x301056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x301056 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x96x56x56_S128x301056 : S128x96x56x56.ShapeCasts S128x301056
  inb_S8x301056_S7x100352_1_0 : ∀ a, (![1, 0] : Fin 2 → Nat) a + S7x100352.size a ≤ S8x301056.size a
  h_S7x100352 : 0 < S7x100352.numel
  shapeCasts_S7x100352_S7x100352 : S7x100352.ShapeCasts S7x100352
  inb_S8x301056_S7x100352_0_0 : ∀ a, (![0, 0] : Fin 2 → Nat) a + S7x100352.size a ≤ S8x301056.size a
  inb_S8x301056_S1x100352_7_0 : ∀ a, (![7, 0] : Fin 2 → Nat) a + S1x100352.size a ≤ S8x301056.size a
  h_S1x100352 : 0 < S1x100352.numel
  inb_S8x301056_S1x100352_0_100352 : ∀ a, (![0, 100352] : Fin 2 → Nat) a + S1x100352.size a ≤ S8x301056.size a
  inb_S8x301056_S7x100352_0_100352 : ∀ a, (![0, 100352] : Fin 2 → Nat) a + S7x100352.size a ≤ S8x301056.size a
  inb_S8x301056_S7x100352_1_100352 : ∀ a, (![1, 100352] : Fin 2 → Nat) a + S7x100352.size a ≤ S8x301056.size a
  inb_S8x301056_S8x100352_0_200704 : ∀ a, (![0, 200704] : Fin 2 → Nat) a + S8x100352.size a ≤ S8x301056.size a
  h_S8x100352 : 0 < S8x100352.numel
  shapeCasts_S8x100352_S8x100352 : S8x100352.ShapeCasts S8x100352
  shapeCasts_S128x301056_S128x96x56x56 : S128x301056.ShapeCasts S128x96x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x301056.size a ≤ S128x301056.size a
  hwx0_0 : ∀ i : grid0.Coords, EltTy.bits .f32 = 32 ∨ (Rect.block (s := S128x301056) S8x301056.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x301056.size a ≤ S128x301056.size a
  hwx0_1 : ∀ i : grid0.Coords, EltTy.bits .f32 = 32 ∨ (Rect.block (s := S128x301056) S8x301056.size (cc0_transform_1 i) (hinb0_1 i)).WholeWords (EltTy.packing .f32)

variable [Facts₀]

abbrev win0_0 : Pipeline.Window sig grid0 :=
  Pipeline.Window.ofSpec (Memref.whole main_v0) S8x301056.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x301056.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x96x56x56 : Shape := ⟨4, ![128, 96, 56, 56]⟩
abbrev S16x8x96x56x56 : Shape := ⟨5, ![16, 8, 96, 56, 56]⟩
abbrev S16x8x32x56x56 : Shape := ⟨5, ![16, 8, 32, 56, 56]⟩
abbrev S16x7x32x56x56 : Shape := ⟨5, ![16, 7, 32, 56, 56]⟩
abbrev S16x1x32x56x56 : Shape := ⟨5, ![16, 1, 32, 56, 56]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S128x96x56x56, .f32⟩
  | .hbm, ⟨1, _⟩ => ⟨S16x8x96x56x56, .f32⟩
  | .hbm, ⟨2, _⟩ => ⟨S16x8x32x56x56, .f32⟩
  | .hbm, ⟨3, _⟩ => ⟨S16x8x32x56x56, .f32⟩
  | .hbm, ⟨4, _⟩ => ⟨S16x8x32x56x56, .f32⟩
  | .hbm, ⟨5, _⟩ => ⟨S16x7x32x56x56, .f32⟩
  | .hbm, ⟨6, _⟩ => ⟨S16x1x32x56x56, .f32⟩
  | .hbm, ⟨7, _⟩ => ⟨S_, .f32⟩
  | .hbm, ⟨8, _⟩ => ⟨S16x1x32x56x56, .f32⟩
  | .hbm, ⟨9, _⟩ => ⟨S16x8x32x56x56, .f32⟩
  | .hbm, ⟨10, _⟩ => ⟨S16x1x32x56x56, .f32⟩
  | .hbm, ⟨11, _⟩ => ⟨S_, .f32⟩
  | .hbm, ⟨12, _⟩ => ⟨S16x1x32x56x56, .f32⟩
  | .hbm, ⟨13, _⟩ => ⟨S16x7x32x56x56, .f32⟩
  | .hbm, ⟨14, _⟩ => ⟨S16x8x32x56x56, .f32⟩
  | .hbm, ⟨15, _⟩ => ⟨S16x8x96x56x56, .f32⟩
  | .hbm, ⟨16, _⟩ => ⟨S128x96x56x56, .f32⟩
  | _, _ => ⟨S128x96x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  shapeCasts_S128x96x56x56_S16x8x96x56x56 : S128x96x56x56.ShapeCasts S16x8x96x56x56
  slices_S16x8x96x56x56_S16x8x32x56x56_0_0_0_0_0 : S16x8x96x56x56.Slices ![0, 0, 0, 0, 0] S16x8x32x56x56
  slices_S16x8x96x56x56_S16x8x32x56x56_0_0_32_0_0 : S16x8x96x56x56.Slices ![0, 0, 32, 0, 0] S16x8x32x56x56
  slices_S16x8x96x56x56_S16x8x32x56x56_0_0_64_0_0 : S16x8x96x56x56.Slices ![0, 0, 64, 0, 0] S16x8x32x56x56
  slices_S16x8x32x56x56_S16x7x32x56x56_0_1_0_0_0 : S16x8x32x56x56.Slices ![0, 1, 0, 0, 0] S16x7x32x56x56
  slices_S16x8x32x56x56_S16x1x32x56x56_0_0_0_0_0 : S16x8x32x56x56.Slices ![0, 0, 0, 0, 0] S16x1x32x56x56
  bcast_S_S16x1x32x56x56 : S_.BroadcastsInDim S16x1x32x56x56 (![] : Fin 0 → Fin S16x1x32x56x56.rank)
  concatenates_S16x7x32x56x56_S16x1x32x56x56_S16x8x32x56x56_d1 : Shape.Concatenates [S16x7x32x56x56, S16x1x32x56x56] S16x8x32x56x56 1
  slices_S16x8x32x56x56_S16x7x32x56x56_0_0_0_0_0 : S16x8x32x56x56.Slices ![0, 0, 0, 0, 0] S16x7x32x56x56
  concatenates_S16x1x32x56x56_S16x7x32x56x56_S16x8x32x56x56_d1 : Shape.Concatenates [S16x1x32x56x56, S16x7x32x56x56] S16x8x32x56x56 1
  concatenates_S16x8x32x56x56_S16x8x32x56x56_S16x8x32x56x56_S16x8x96x56x56_d2 : Shape.Concatenates [S16x8x32x56x56, S16x8x32x56x56, S16x8x32x56x56] S16x8x96x56x56 2
  shapeCasts_S16x8x96x56x56_S128x96x56x56 : S16x8x96x56x56.ShapeCasts S128x96x56x56

variable [Facts₀]

class Facts : Prop extends Facts₀ where

variable [Facts]
-- ==== Proof.Spec.lean ====
/-
  The temporal channel shift, as one function of the input.

  The input is 128 frames (16 batches of 8 consecutive frames), each frame 96 channels of 56 x 56 values.  A frame is
  flattened to one row of 96 * 56 * 56 = 301056 values, so the first 32 channels are the columns below 100352 = 32 * 3136,
  the next 32 the columns from 100352 up to 200704, and the last 32 the columns from 200704 on.  Writing a row as
  r = 8 * b + s (batch b, frame s of the batch), the result at row r and column q is

    * for q < 100352            : the input at row r + 1 when s < 7, and zero when s = 7   (the next frame);
    * for 100352 <= q < 200704  : zero when s = 0, and the input at row r - 1 otherwise     (the previous frame);
    * for 200704 <= q           : the input at row r                                         (unchanged).

  Three spellings of it are stated: on one batch (8 rows), on all 128 rows (with s = r % 8), and on the 128 x 96 x 56 x 56 array
  itself (flatten, shift the rows, reshape back; there the three column ranges are the channels 0..31, 32..63, 64..95).  Each
  comes with one lemma per branch that reads it at an index: the caller names the source index and proves the coordinate equations.
  Nothing here depends on what the values are: z is the value written for "zero".
-/
import Idealize.ShloMosaic.PureOps.Ideal
import Idealize.ShloMosaic.Lib.ValueIdx
import Idealize.ShloMosaic.Lib.Pipeline.Value

noncomputable section

namespace Cert.Shift

open Idealize.ShloMosaic Idealize.ShloMosaic.ValueIdx

/-- One batch: 8 frames, each a row of 301056 values. -/
abbrev Blk : Shape := ⟨2, ![8, 301056]⟩
/-- All 128 frames as rows. -/
abbrev Rows : Shape := ⟨2, ![128, 301056]⟩

variable {α : Type}

/-! ## On one batch -/

/-- The shift on one batch of 8 frames. -/
def blockShift (z : α) (X : Blk.Idx → α) : Blk.Idx → α := fun y =>
  if (y 1).val < 100352 then
    if h : (y 0).val < 7 then X (ix2 (⟨(y 0).val + 1, by omega⟩ : Fin 8) (⟨(y 1).val, idx2_lt1 y⟩ : Fin 301056)) else z
  else if (y 1).val < 200704 then
    if h : (y 0).val = 0 then z
    else X (ix2 (⟨(y 0).val - 1, by have := idx2_lt0 y; omega⟩ : Fin 8) (⟨(y 1).val, idx2_lt1 y⟩ : Fin 301056))
  else X y

/-- First channel group, not the last frame: the next frame. -/
theorem blockShift_next (z : α) (X : Blk.Idx → α) (y k : Blk.Idx) (hq : (y 1).val < 100352) (hs : (y 0).val < 7)
    (hk0 : (k 0).val = (y 0).val + 1) (hk1 : (k 1).val = (y 1).val) : blockShift z X y = X k := by
  unfold blockShift
  rw [if_pos hq, dif_pos hs]
  exact congrArg X (funext fun a => Fin.ext (match a with | ⟨0, _⟩ => hk0.symm | ⟨1, _⟩ => hk1.symm))

/-- First channel group, the last frame: zero. -/
theorem blockShift_next_last (z : α) (X : Blk.Idx → α) (y : Blk.Idx) (hq : (y 1).val < 100352) (hs : ¬(y 0).val < 7) :
    blockShift z X y = z := by
  unfold blockShift
  rw [if_pos hq, dif_neg hs]

/-- Second channel group, the first frame: zero. -/
theorem blockShift_prev_first (z : α) (X : Blk.Idx → α) (y : Blk.Idx) (hq : ¬(y 1).val < 100352) (hq' : (y 1).val < 200704)
    (hs : (y 0).val = 0) : blockShift z X y = z := by
  unfold blockShift
  rw [if_neg hq, if_pos hq', dif_pos hs]

/-- Second channel group, not the first frame: the previous frame. -/
theorem blockShift_prev (z : α) (X : Blk.Idx → α) (y k : Blk.Idx) (hq : ¬(y 1).val < 100352) (hq' : (y 1).val < 200704)
    (hs : ¬(y 0).val = 0) (hk0 : (k 0).val + 1 = (y 0).val) (hk1 : (k 1).val = (y 1).val) : blockShift z X y = X k := by
  unfold blockShift
  rw [if_neg hq, if_pos hq', dif_neg hs]
  exact congrArg X (funext fun a => Fin.ext (match a with
    | ⟨0, _⟩ => by show (y 0).val - 1 = (k 0).val; omega
    | ⟨1, _⟩ => hk1.symm))

/-- Third channel group: unchanged. -/
theorem blockShift_same (z : α) (X : Blk.Idx → α) (y : Blk.Idx) (hq : ¬(y 1).val < 100352) (hq' : ¬(y 1).val < 200704) :
    blockShift z X y = X y := by
  unfold blockShift
  rw [if_neg hq, if_neg hq']

/-! ## On all the rows -/

/-- The shift on the 128 rows: row `r` is frame `r % 8` of its batch. -/
def rowShift (z : α) (X : Rows.Idx → α) : Rows.Idx → α := fun i =>
  if (i 1).val < 100352 then
    if h : (i 0).val % 8 < 7 then
      X (ix2 (⟨(i 0).val + 1, by have := idx2_lt0 i; omega⟩ : Fin 128) (⟨(i 1).val, idx2_lt1 i⟩ : Fin 301056))
    else z
  else if (i 1).val < 200704 then
    if h : (i 0).val % 8 = 0 then z
    else X (ix2 (⟨(i 0).val - 1, by have := idx2_lt0 i; omega⟩ : Fin 128) (⟨(i 1).val, idx2_lt1 i⟩ : Fin 301056))
  else X i

/-- First channel group, not the last frame of its batch: the next row. -/
theorem rowShift_next (z : α) (X : Rows.Idx → α) (i k : Rows.Idx) (hq : (i 1).val < 100352) (hs : (i 0).val % 8 < 7)
    (hk0 : (k 0).val = (i 0).val + 1) (hk1 : (k 1).val = (i 1).val) : rowShift z X i = X k := by
  unfold rowShift
  rw [if_pos hq, dif_pos hs]
  exact congrArg X (funext fun a => Fin.ext (match a with | ⟨0, _⟩ => hk0.symm | ⟨1, _⟩ => hk1.symm))

/-- First channel group, the last frame of its batch: zero. -/
theorem rowShift_next_last (z : α) (X : Rows.Idx → α) (i : Rows.Idx) (hq : (i 1).val < 100352) (hs : ¬(i 0).val % 8 < 7) :
    rowShift z X i = z := by
  unfold rowShift
  rw [if_pos hq, dif_neg hs]

/-- Second channel group, the first frame of its batch: zero. -/
theorem rowShift_prev_first (z : α) (X : Rows.Idx → α) (i : Rows.Idx) (hq : ¬(i 1).val < 100352) (hq' : (i 1).val < 200704)
    (hs : (i 0).val % 8 = 0) : rowShift z X i = z := by
  unfold rowShift
  rw [if_neg hq, if_pos hq', dif_pos hs]

/-- Second channel group, not the first frame of its batch: the previous row. -/
theorem rowShift_prev (z : α) (X : Rows.Idx → α) (i k : Rows.Idx) (hq : ¬(i 1).val < 100352) (hq' : (i 1).val < 200704)
    (hs : ¬(i 0).val % 8 = 0) (hk0 : (k 0).val + 1 = (i 0).val) (hk1 : (k 1).val = (i 1).val) : rowShift z X i = X k := by
  unfold rowShift
  rw [if_neg hq, if_pos hq', dif_neg hs]
  exact congrArg X (funext fun a => Fin.ext (match a with
    | ⟨0, _⟩ => by show (i 0).val - 1 = (k 0).val; omega
    | ⟨1, _⟩ => hk1.symm))

/-- Third channel group: unchanged. -/
theorem rowShift_same (z : α) (X : Rows.Idx → α) (i : Rows.Idx) (hq : ¬(i 1).val < 100352) (hq' : ¬(i 1).val < 200704) :
    rowShift z X i = X i := by
  unfold rowShift
  rw [if_neg hq, if_neg hq']

/-! ## A batch of the rows -/

/-- Batch `t` of the shifted rows is the shift of batch `t` of the rows: with `Xb` the rows `8 t .. 8 t + 7` of `Xr`, the shift of
    `Xb` at frame `s`, column `q` is the shifted rows at row `8 t + s`, column `q` — frame `s` of batch `t` is row
    `8 t + s`, whose frame number `(8 t + s) % 8` is `s`, and its next and previous frames are the rows `8 t + s ± 1` of the same batch. -/
theorem blockShift_eq_rowShift (z : α) (Xb : Blk.Idx → α) (Xr : Rows.Idx → α) (t : Nat)
    (hX : ∀ (y' : Blk.Idx) (i' : Rows.Idx), (i' 0).val = t * 8 + (y' 0).val → (i' 1).val = (y' 1).val → Xb y' = Xr i')
    (y : Blk.Idx) (i : Rows.Idx) (hi0 : (i 0).val = t * 8 + (y 0).val) (hi1 : (i 1).val = (y 1).val) :
    blockShift z Xb y = rowShift z Xr i := by
  have hy0 : (y 0).val < 8 := idx2_lt0 y
  have hy1 : (y 1).val < 301056 := idx2_lt1 y
  have hi0' : (i 0).val < 128 := idx2_lt0 i
  by_cases hq : (y 1).val < 100352
  · by_cases hs : (y 0).val < 7
    · rw [blockShift_next z Xb y (ix2 (⟨(y 0).val + 1, by omega⟩ : Fin 8) (⟨(y 1).val, hy1⟩ : Fin 301056)) hq hs rfl rfl,
        rowShift_next z Xr i (ix2 (⟨(i 0).val + 1, by omega⟩ : Fin 128) (⟨(i 1).val, by omega⟩ : Fin 301056)) (by omega) (by omega) rfl rfl]
      exact hX _ _ (by show (i 0).val + 1 = t * 8 + ((y 0).val + 1); omega) (by show (i 1).val = (y 1).val; omega)
    · rw [blockShift_next_last z Xb y hq hs, rowShift_next_last z Xr i (by omega) (by omega)]
  · by_cases hq' : (y 1).val < 200704
    · by_cases hs : (y 0).val = 0
      · rw [blockShift_prev_first z Xb y hq hq' hs, rowShift_prev_first z Xr i (by omega) (by omega) (by omega)]
      · rw [blockShift_prev z Xb y (ix2 (⟨(y 0).val - 1, by omega⟩ : Fin 8) (⟨(y 1).val, hy1⟩ : Fin 301056)) hq hq' hs
            (by show (y 0).val - 1 + 1 = (y 0).val; omega) rfl,
          rowShift_prev z Xr i (ix2 (⟨(i 0).val - 1, by omega⟩ : Fin 128) (⟨(i 1).val, by omega⟩ : Fin 301056)) (by omega) (by omega) (by omega)
            (by show (i 0).val - 1 + 1 = (i 0).val; omega) rfl]
        exact hX _ _ (by show (i 0).val - 1 = t * 8 + ((y 0).val - 1); omega) (by show (i 1).val = (y 1).val; omega)
    · rw [blockShift_same z Xb y hq hq', rowShift_same z Xr i (by omega) (by omega)]
      exact hX y i hi0 hi1

/-! ## On the 128 x 96 x 56 x 56 array -/

/-- The argument's and the result's shape: 128 frames of 96 channels of 56 x 56 values. -/
abbrev Arr : Shape := ⟨4, ![128, 96, 56, 56]⟩

/-- The shift of the array: each frame flattened to a row, the rows shifted, the rows reshaped back. (The two reshapes keep
    the row-major position, so entry `(r, c, h, w)` of the array is column `(c * 56 + h) * 56 + w` of row `r`.) -/
def shift (z : α) (hf : Arr.ShapeCasts Rows) (hb : Rows.ShapeCasts Arr) (x : Arr.Idx → α) : Arr.Idx → α :=
  shapeCast Arr (rowShift z (shapeCast Rows x hf)) hb

/-- Where an entry of the array sits among the rows. -/
def rc (j : Arr.Idx) : Rows.Idx :=
  ix2 (⟨(j 0).val, (j 0).isLt⟩ : Fin 128)
    (⟨((j 1).val * 56 + (j 2).val) * 56 + (j 3).val, by
      have h1 : (j 1).val < 96 := (j 1).isLt
      have h2 : (j 2).val < 56 := (j 2).isLt
      have h3 : (j 3).val < 56 := (j 3).isLt
      omega⟩ : Fin 301056)

/-- The flattened array at a row and column is the array at the entry that sits there. -/
theorem flat_apply (x : Arr.Idx → α) (hf : Arr.ShapeCasts Rows) (k : Arr.Idx) : shapeCast Rows x hf (rc k) = x k :=
  shapeCast_apply x hf (rc k) k (by
    rewrite [Shape.rowMajor_val_four, Shape.rowMajor_val_two]
    show (((k 0).val * 96 + (k 1).val) * 56 + (k 2).val) * 56 + (k 3).val
      = (k 0).val * 301056 + (((k 1).val * 56 + (k 2).val) * 56 + (k 3).val)
    omega)

/-- Rows reshaped back to the array, at an entry, are the rows where the entry sits. -/
theorem unflat_apply (X : Rows.Idx → α) (hb : Rows.ShapeCasts Arr) (j : Arr.Idx) : shapeCast Arr X hb j = X (rc j) :=
  shapeCast_apply X hb j (rc j) (by
    rewrite [Shape.rowMajor_val_two, Shape.rowMajor_val_four]
    show (j 0).val * 301056 + (((j 1).val * 56 + (j 2).val) * 56 + (j 3).val)
      = (((j 0).val * 96 + (j 1).val) * 56 + (j 2).val) * 56 + (j 3).val
    omega)

section ShiftAt
variable (z : α) (hf : Arr.ShapeCasts Rows) (hb : Rows.ShapeCasts Arr) (x : Arr.Idx → α) (j : Arr.Idx)

/-- Channels 0..31, not the last frame of its batch: the next frame, same channel and position. -/
theorem shift_next (k : Arr.Idx) (hc : (j 1).val < 32) (hs : (j 0).val % 8 < 7) (hk0 : (k 0).val = (j 0).val + 1)
    (hk1 : (k 1).val = (j 1).val) (hk2 : (k 2).val = (j 2).val) (hk3 : (k 3).val = (j 3).val) : shift z hf hb x j = x k := by
  have h2 : (j 2).val < 56 := (j 2).isLt
  have h3 : (j 3).val < 56 := (j 3).isLt
  unfold shift
  rw [unflat_apply]
  refine (rowShift_next z _ (rc j) (rc k) ?_ hs hk0 ?_).trans (flat_apply x hf k)
  · show ((j 1).val * 56 + (j 2).val) * 56 + (j 3).val < 100352; omega
  · show ((k 1).val * 56 + (k 2).val) * 56 + (k 3).val = ((j 1).val * 56 + (j 2).val) * 56 + (j 3).val; omega

/-- Channels 0..31, the last frame of its batch: zero. -/
theorem shift_next_last (hc : (j 1).val < 32) (hs : ¬(j 0).val % 8 < 7) : shift z hf hb x j = z := by
  have h2 : (j 2).val < 56 := (j 2).isLt
  have h3 : (j 3).val < 56 := (j 3).isLt
  unfold shift
  rw [unflat_apply]
  exact rowShift_next_last z _ (rc j) (by show ((j 1).val * 56 + (j 2).val) * 56 + (j 3).val < 100352; omega) hs

/-- Channels 32..63, the first frame of its batch: zero. -/
theorem shift_prev_first (hc : ¬(j 1).val < 32) (hc' : (j 1).val < 64) (hs : (j 0).val % 8 = 0) : shift z hf hb x j = z := by
  have h2 : (j 2).val < 56 := (j 2).isLt
  have h3 : (j 3).val < 56 := (j 3).isLt
  unfold shift
  rw [unflat_apply]
  exact rowShift_prev_first z _ (rc j) (by show ¬(((j 1).val * 56 + (j 2).val) * 56 + (j 3).val < 100352); omega)
    (by show ((j 1).val * 56 + (j 2).val) * 56 + (j 3).val < 200704; omega) hs

/-- Channels 32..63, not the first frame of its batch: the previous frame, same channel and position. -/
theorem shift_prev (k : Arr.Idx) (hc : ¬(j 1).val < 32) (hc' : (j 1).val < 64) (hs : ¬(j 0).val % 8 = 0)
    (hk0 : (k 0).val + 1 = (j 0).val) (hk1 : (k 1).val = (j 1).val) (hk2 : (k 2).val = (j 2).val) (hk3 : (k 3).val = (j 3).val) :
    shift z hf hb x j = x k := by
  have h2 : (j 2).val < 56 := (j 2).isLt
  have h3 : (j 3).val < 56 := (j 3).isLt
  unfold shift
  rw [unflat_apply]
  refine (rowShift_prev z _ (rc j) (rc k) ?_ ?_ hs hk0 ?_).trans (flat_apply x hf k)
  · show ¬(((j 1).val * 56 + (j 2).val) * 56 + (j 3).val < 100352); omega
  · show ((j 1).val * 56 + (j 2).val) * 56 + (j 3).val < 200704; omega
  · show ((k 1).val * 56 + (k 2).val) * 56 + (k 3).val = ((j 1).val * 56 + (j 2).val) * 56 + (j 3).val; omega

/-- Channels 64..95: unchanged. -/
theorem shift_same (hc : ¬(j 1).val < 32) (hc' : ¬(j 1).val < 64) : shift z hf hb x j = x j := by
  have h2 : (j 2).val < 56 := (j 2).isLt
  have h3 : (j 3).val < 56 := (j 3).isLt
  unfold shift
  rw [unflat_apply]
  exact (rowShift_same z _ (rc j) (by show ¬(((j 1).val * 56 + (j 2).val) * 56 + (j 3).val < 100352); omega)
    (by show ¬(((j 1).val * 56 + (j 2).val) * 56 + (j 3).val < 200704); omega)).trans (flat_apply x hf j)

end ShiftAt

end Cert.Shift

end
-- ==== Proof.BlockValue.lean ====
/-
  What the kernel body leaves in the output's staging buffer, for one batch.

  The body makes five stores into the 8 x 301056 output block, from the 8 x 301056 input block X of the same batch:
    rows 0..6, columns [0, 100352)        <- rows 1..7 of X, same columns     (the next frame)
    row  7,    columns [0, 100352)        <- zero
    row  0,    columns [100352, 200704)   <- zero
    rows 1..7, columns [100352, 200704)   <- rows 0..6 of X, same columns     (the previous frame)
    rows 0..7, columns [200704, 301056)   <- the same rows and columns of X   (unchanged)
  The five rectangles tile the block, and each store's value is the restriction of ONE function of the block index, the
  shift of X on one batch: so the buffer ends holding that function (the contents a list of covering stores leaves, each the
  restriction of one function, is that function).  Stated for every float instance: no arithmetic is done on the values.
-/
import proofs.«138106_j75196287418795_2_alg».proof.Proof.Spec
import proofs.«138106_j75196287418795_2_alg».proof.Proof.Gen.KernelIdeal.Frame
import Idealize.ShloMosaic.Lib.Pipeline.Value
import Idealize.ShloMosaic.Lib.Tactic

noncomputable section

namespace Cert.KernelIdeal.ShiftValue

open Idealize.ShloMosaic Idealize.ShloMosaic.TcCoe Idealize.SL.Sem Idealize.ShloMosaic.ValueIdx
open Cert.KernelIdeal Cert.KernelIdeal.Gen Cert.Shift

variable {F : FTy → Type} [FloatOps F]

/-- The value the body stores in the two emptied frames: the float whose word is zero. -/
abbrev zero : F .f32 := Scalar.ofBits .f32 0x00000000#32

/-! ## Each store's value is the shift of the input block, read where the store writes -/

/-- Rows 0..7 of the last channel group: the same entry of the input block. -/
theorem piece_same (X : Vec F S8x301056 .f32) (x : S8x100352.Idx) :
    k0_pay4 (View.ld X (Rect.unit (s := S8x301056) ![0, 200704] S8x100352.size inb_S8x301056_S8x100352_0_200704)) x
      = blockShift (zero (F := F)) X ((Rect.unit (s := S8x301056) ![0, 200704] S8x100352.size inb_S8x301056_S8x100352_0_200704).emb x) := by
  have hx1 : (x 1).val < 100352 := idx2_lt1 x
  unfold k0_pay4
  dsimp only
  rw [shapeCast_self]
  exact (blockShift_same zero X _ (by show ¬(200704 + 1 * (x 1).val < 100352); omega)
    (by show ¬(200704 + 1 * (x 1).val < 200704); omega)).symm

/-- Rows 1..7 of the middle channel group: the row above of the input block. -/
theorem piece_prev (X : Vec F S8x301056 .f32) (x : S7x100352.Idx) :
    k0_pay3 (View.ld X (Rect.unit (s := S8x301056) ![0, 100352] S7x100352.size inb_S8x301056_S7x100352_0_100352)) x
      = blockShift (zero (F := F)) X ((Rect.unit (s := S8x301056) ![1, 100352] S7x100352.size inb_S8x301056_S7x100352_1_100352).emb x) := by
  have hx0 : (x 0).val < 7 := idx2_lt0 x
  have hx1 : (x 1).val < 100352 := idx2_lt1 x
  unfold k0_pay3
  dsimp only
  rw [shapeCast_self]
  exact (blockShift_prev zero X _ _ (by show ¬(100352 + 1 * (x 1).val < 100352); omega)
    (by show 100352 + 1 * (x 1).val < 200704; omega) (by show ¬(1 + 1 * (x 0).val = 0); omega)
    (by show 0 + 1 * (x 0).val + 1 = 1 + 1 * (x 0).val; omega)
    (by show 100352 + 1 * (x 1).val = 100352 + 1 * (x 1).val; rfl)).symm

/-- Row 0 of the middle channel group: zero. -/
theorem piece_prev_first (X : Vec F S8x301056 .f32) (x : S1x100352.Idx) :
    k0_pay1 (F := F) x
      = blockShift (zero (F := F)) X ((Rect.unit (s := S8x301056) ![0, 100352] S1x100352.size inb_S8x301056_S1x100352_0_100352).emb x) := by
  have hx0 : (x 0).val < 1 := idx2_lt0 x
  have hx1 : (x 1).val < 100352 := idx2_lt1 x
  exact (blockShift_prev_first zero X _ (by show ¬(100352 + 1 * (x 1).val < 100352); omega)
    (by show 100352 + 1 * (x 1).val < 200704; omega) (by show 0 + 1 * (x 0).val = 0; omega)).symm

/-- Row 7 of the first channel group: zero. -/
theorem piece_next_last (X : Vec F S8x301056 .f32) (x : S1x100352.Idx) :
    k0_pay1 (F := F) x
      = blockShift (zero (F := F)) X ((Rect.unit (s := S8x301056) ![7, 0] S1x100352.size inb_S8x301056_S1x100352_7_0).emb x) := by
  have hx1 : (x 1).val < 100352 := idx2_lt1 x
  exact (blockShift_next_last zero X _ (by show 0 + 1 * (x 1).val < 100352; omega)
    (by show ¬(7 + 1 * (x 0).val < 7); omega)).symm

/-- Rows 0..6 of the first channel group: the row below of the input block. -/
theorem piece_next (X : Vec F S8x301056 .f32) (x : S7x100352.Idx) :
    k0_pay2 (View.ld X (Rect.unit (s := S8x301056) ![1, 0] S7x100352.size inb_S8x301056_S7x100352_1_0)) x
      = blockShift (zero (F := F)) X ((Rect.unit (s := S8x301056) ![0, 0] S7x100352.size inb_S8x301056_S7x100352_0_0).emb x) := by
  have hx0 : (x 0).val < 7 := idx2_lt0 x
  have hx1 : (x 1).val < 100352 := idx2_lt1 x
  unfold k0_pay2
  dsimp only
  rw [shapeCast_self]
  exact (blockShift_next zero X _ _ (by show 0 + 1 * (x 1).val < 100352; omega)
    (by show 0 + 1 * (x 0).val < 7; omega)
    (by show 1 + 1 * (x 0).val = 0 + 1 * (x 0).val + 1; omega)
    (by show 0 + 1 * (x 1).val = 0 + 1 * (x 1).val; rfl)).symm

/-! ## The block the body leaves -/

/-- On any staging buffers, at any grid point, from the input block `X`: the output's staging buffer ends holding the shift of
    `X` on one batch. -/
theorem out_block (c : Dev nD) (i : grid0.Coords) (a1 : Memref sig .tc .vmem S8x301056 .f32) (h1 : a1.IsWhole)
    (a2 : Memref sig .tc .vmem S8x301056 .f32) (h2 : a2.IsWhole) (X : Vec F S8x301056 .f32) :
    out0_A_1 c i a1 h1 a2 h2 X = blockShift (zero (F := F)) X := by
  unfold out0_A_1
  rw [View.read_writes_eq_canon _ _ _ (cover0_A_1 c i a1 h1 a2 h2 X)]
  funext y
  refine View.canon_apply_of_pieces (blockShift (zero (F := F)) X) _ ?_ y (cover0_A_1 c i a1 h1 a2 h2 X y)
  unfold kernelRun0_A
  dsimp only
  sl_unfold_words
  simp only [View.readAt_eq_ld, h1.read_unread]
  intro p hp
  simp only [List.mem_cons, List.not_mem_nil, or_false] at hp
  rcases hp with rfl | rfl | rfl | rfl | rfl
  · exact fun x => piece_same X x
  · exact fun x => piece_prev X x
  · exact fun x => piece_prev_first X x
  · exact fun x => piece_next_last X x
  · exact fun x => piece_next X x

end Cert.KernelIdeal.ShiftValue

end
-- ==== Proof.ArrayValue.lean ====
/-
  What the kernel's result array holds after the run.

  The call has 16 grid points; point t stages rows 8 t .. 8 t + 7 of the 128 x 301056 input (batch t) and writes back the same
  rows of the 128 x 301056 output.  What it writes back is the shift of batch t, which is batch t of the shift of all the rows
  (row 8 t + s is frame s of batch t, and its neighbouring frames are rows of the same batch).  Row r lies in the block of
  point r / 8, so the 16 blocks cover the output, which therefore ends holding the shift of the rows.  Around the call the
  program flattens its 128 x 96 x 56 x 56 argument to the rows (a reshape) and reshapes the output rows back.
-/
import proofs.«138106_j75196287418795_2_alg».proof.Proof.BlockValue
import Idealize.ShloMosaic.Lib.StableHlo.Run

noncomputable section

namespace Cert.KernelIdeal.ShiftValue

open Idealize.ShloMosaic Idealize.ShloMosaic.TcCoe Idealize.SL.Sem Idealize.ShloMosaic.ValueIdx
open Idealize.ShloMosaic.Pipeline (Dat)
open Cert.KernelIdeal Cert.KernelIdeal.Gen Cert.Shift

variable {F : FTy → Type} [FloatOps F]
variable (m : (ℓ : Loc nD τ sig) → Buf (Elt F) ℓ) (ρ : Dev nD → PrngReg)

/-! ## The blocks -/

/-- Both windows' block at point `t` is block `(t, 0)`: rows `8 t .. 8 t + 7`, every column. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t`, at frame `y 0` and column `y 1`, is the input rows at row `8 t + y 0`, column `y 1`. -/
theorem iblk_apply (c : Dev nD) (t : Fin cfg0.N) (y : S8x301056.Idx) (i : S128x301056.Idx)
    (h0 : (i 0).val = t.val * 8 + (y 0).val) (h1 : (i 1).val = (y 1).val) :
    iblk m c 0 t y = V m c main_v0 i := by
  obtain ⟨e0, e1, -, -⟩ := idx_facts t
  show V m c main_v0 (((cfg0.win 0).blk t).view.emb y) = V m c main_v0 i
  refine congrArg (V m c main_v0) ?_
  funext a; apply Fin.ext
  match a with
  | ⟨0, _⟩ => show win0_0.index t (0 : Fin 2) * 8 + 1 * (y 0).val = (i 0).val; omega
  | ⟨1, _⟩ => show win0_0.index t (1 : Fin 2) * 301056 + 1 * (y 1).val = (i 1).val; omega

/-- What point `t` writes back is block `t` of the shift of the input rows. -/
theorem flushed_eq (c : Dev nD) (t : Fin cfg0.N) :
    (dats m 0 c).flushed 1 t = ((cfg0.win 1).blk t).view.read (Elt F) (rowShift (zero (F := F)) (V m c main_v0)) := by
  show (cfg0.win 1).cut (grid0.coords t) ((dats m 0 c).after 1 t) = _
  rw [after0_1]
  unfold outsAt0
  rw [out_block]
  obtain ⟨-, -, e2, e3⟩ := idx_facts t
  funext y
  show blockShift (zero (F := F)) (iblk m c 0 t) y = rowShift (zero (F := F)) (V m c main_v0) (((cfg0.win 1).blk t).view.emb y)
  exact blockShift_eq_rowShift zero (iblk m c 0 t) (V m c main_v0) t.val (fun y' i' h0 h1 => iblk_apply m c t y' i' h0 h1) y _
    (by show win0_1.index t (0 : Fin 2) * 8 + 1 * (y 0).val = t.val * 8 + (y 0).val; omega)
    (by show win0_1.index t (1 : Fin 2) * 301056 + 1 * (y 1).val = (y 1).val; omega)

/-- A row-and-column index is in point `t`'s output block iff each coordinate is in the block's range. -/
theorem mem_blk (t : Fin cfg0.N) (i : S128x301056.Idx) :
    i ∈ ((cfg0.win 1).blk t).view.set ↔ ∀ a : Fin 2, win0_1.index t a * S8x301056.size a ≤ (i a).val
      ∧ (i a).val < win0_1.index t a * S8x301056.size a + S8x301056.size a := by
  show i ∈ ((View.whole main_v1).slice (win0_1.rect t)).set ↔ _
  rw [View.set_slice_whole, Rect.mem_set_unit]
  exact Iff.rfl

/-- Every index of the output is in some point's block: row `r` in point `r / 8`'s. -/
theorem cover (i : S128x301056.Idx) :
    ∃ t : Fin cfg0.N, (cfg0.win 1).flush t = true ∧ i ∈ ((cfg0.win 1).blk t).view.set := by
  have hi0 : (i 0).val < 128 := idx2_lt0 i
  have hi1 : (i 1).val < 301056 := idx2_lt1 i
  have hN : cfg0.N = 16 := N_0
  obtain ⟨t, ht⟩ : ∃ t : Fin cfg0.N, t.val = (i 0).val / 8 := ⟨⟨(i 0).val / 8, by rw [hN]; omega⟩, rfl⟩
  obtain ⟨-, -, e2, e3⟩ := idx_facts t
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 301056 ≤ (i 1).val ∧ (i 1).val < win0_1.index t (1 : Fin 2) * 301056 + 301056; omega

/-- The output rows after the run: the shift of the input rows. -/
theorem final (c : Dev nD) : (dats m 0 c).arrAt 1 cfg0.N = rowShift (zero (F := F)) (V m c main_v0) :=
  (dats m 0 c).arrAt_eq_of_cover 1 (rowShift (zero (F := F)) (V m c main_v0)) (fun t _ => flushed_eq m c t) cover

/-! ## Around the call -/

/-- The input rows, as the call finds them, are the argument flattened. -/
theorem rows_in (c : Dev nD) :
    (V m c main_v0 : S128x301056.Idx → Elt F .f32)
      = shapeCast S128x301056 (m ((c : Thread nD τ).loc main_arg0)) Facts₀.shapeCasts_S128x96x56x56_S128x301056 := by
  show StableHlo.after hostOps0 (fun b => m (c, b)) (Proc.devRef .tc main_v0) = _
  after_results
  rfl

/-- The program's result: the shift of the argument (flattened to rows, the rows shifted, reshaped back). -/
abbrev result (x : S128x96x56x56.Idx → Elt F .f32) : S128x96x56x56.Idx → Elt F .f32 :=
  shift (zero (F := F)) Facts₀.shapeCasts_S128x96x56x56_S128x301056 Facts₀.shapeCasts_S128x301056_S128x96x56x56 x

/-- What the line after the call leaves in the result buffer. -/
theorem tail_eq (c : Dev nD) :
    Pipeline.afterTail₀ cfgs (dats m) 0 (V0 m) [hostOps1] c main_v2 = result (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c), rows_in]
  rfl

/-- The run, read: the result buffer at the shift of the argument, the argument unchanged. -/
theorem run : θ_run defs (onTc (τ := τ) (main (F := F))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.ShiftValue

end
-- ==== Proof.RefValue.lean ====
/-
  The reference computes the shift of its argument.

  The reference views the 128 frames as 16 batches of 8 (a reshape to 16 x 8 x 96 x 56 x 56: frame r is frame r % 8 of batch r / 8),
  cuts the channels into three groups of 32, and rebuilds each batch group by group:
    channels 0..31  : frames 1..7 of the group followed by one frame of zeros   (frame s holds frame s + 1, frame 7 zero);
    channels 32..63 : one frame of zeros followed by frames 0..6 of the group   (frame 0 zero, frame s holds frame s - 1);
    channels 64..95 : the group as it is;
  then joins the three groups along the channels and reshapes back to 128 frames.  Entry by entry that is the shift: each
  slice, concatenation and reshape is read at an index, the joined axis's coordinate saying which operand an entry comes from.
  Stated for every float instance: no arithmetic is done on the values.
-/
import proofs.«138106_j75196287418795_2_alg».proof.Proof.Spec
import proofs.«138106_j75196287418795_2_alg».proof.Proof.Gen.ReferenceIdeal.Read

noncomputable section

namespace Cert.ReferenceIdeal.ShiftValue

open Idealize.ShloMosaic Idealize.ShloMosaic.TcCoe Idealize.ShloMosaic.ValueIdx
open Cert.ReferenceIdeal Cert.ReferenceIdeal.Read Cert.Shift

variable {F : FTy → Type} [FloatOps F]

/-- The value of the reference's zero frames: the float whose word is zero. -/
abbrev zero : F .f32 := FloatOps.ofBits .f32 0x00000000#32

variable (x : (⟨S128x96x56x56, .f32⟩ : BufTy).Contents (Elt F))

/-! ## The batched view and the three channel groups -/

/-- Frame `s` of batch `b` is frame `8 b + s`. -/
theorem v0_at (i : S16x8x96x56x56.Idx) (k : S128x96x56x56.Idx) (h0 : (k 0).val = (i 0).val * 8 + (i 1).val)
    (h1 : (k 1).val = (i 2).val) (h2 : (k 2).val = (i 3).val) (h3 : (k 3).val = (i 4).val) : val_main_v0 (F := F) x i = x k := by
  have b0 : (i 0).val < 16 := (i 0).isLt
  have b1 : (i 1).val < 8 := (i 1).isLt
  have b2 : (i 2).val < 96 := (i 2).isLt
  have b3 : (i 3).val < 56 := (i 3).isLt
  have b4 : (i 4).val < 56 := (i 4).isLt
  rw [val_main_v0_apply]
  refine congrArg x (funext fun a => Fin.ext ?_)
  match a with
  | ⟨0, _⟩ => show (((((i 0).val * 8 + (i 1).val) * 96 + (i 2).val) * 56 + (i 3).val) * 56 + (i 4).val) / 301056 = (k 0).val; omega
  | ⟨1, _⟩ => show (((((i 0).val * 8 + (i 1).val) * 96 + (i 2).val) * 56 + (i 3).val) * 56 + (i 4).val) / 3136 % 96 = (k 1).val; omega
  | ⟨2, _⟩ => show (((((i 0).val * 8 + (i 1).val) * 96 + (i 2).val) * 56 + (i 3).val) * 56 + (i 4).val) / 56 % 56 = (k 2).val; omega
  | ⟨3, _⟩ => show (((((i 0).val * 8 + (i 1).val) * 96 + (i 2).val) * 56 + (i 3).val) * 56 + (i 4).val) % 56 = (k 3).val; omega

/-- Channel `c` of the first group is channel `c`. -/
theorem v1_at (i : S16x8x32x56x56.Idx) (k : S128x96x56x56.Idx) (h0 : (k 0).val = (i 0).val * 8 + (i 1).val)
    (h1 : (k 1).val = (i 2).val) (h2 : (k 2).val = (i 3).val) (h3 : (k 3).val = (i 4).val) : val_main_v1 (F := F) x i = x k :=
  (val_main_v1_apply x i).trans (v0_at x _ k h0 h1 h2 h3)

/-- Channel `c` of the second group is channel `32 + c`. -/
theorem v2_at (i : S16x8x32x56x56.Idx) (k : S128x96x56x56.Idx) (h0 : (k 0).val = (i 0).val * 8 + (i 1).val)
    (h1 : (k 1).val = 32 + (i 2).val) (h2 : (k 2).val = (i 3).val) (h3 : (k 3).val = (i 4).val) : val_main_v2 (F := F) x i = x k :=
  (val_main_v2_apply x i).trans (v0_at x _ k h0 h1 h2 h3)

/-- Channel `c` of the third group is channel `64 + c`. -/
theorem v3_at (i : S16x8x32x56x56.Idx) (k : S128x96x56x56.Idx) (h0 : (k 0).val = (i 0).val * 8 + (i 1).val)
    (h1 : (k 1).val = 64 + (i 2).val) (h2 : (k 2).val = (i 3).val) (h3 : (k 3).val = (i 4).val) : val_main_v3 (F := F) x i = x k :=
  (val_main_v3_apply x i).trans (v0_at x _ k h0 h1 h2 h3)

/-! ## The first group, shifted towards the past -/

/-- Frame `s < 7` of the rebuilt first group is frame `s + 1` of the group. -/
theorem v7_next (i : S16x8x32x56x56.Idx) (k : S128x96x56x56.Idx) (hs : (i 1).val < 7)
    (h0 : (k 0).val = (i 0).val * 8 + (i 1).val + 1) (h1 : (k 1).val = (i 2).val) (h2 : (k 2).val = (i 3).val)
    (h3 : (k 3).val = (i 4).val) : val_main_v7 (F := F) x i = x k := by
  unfold val_main_v7
  refine (concatenate_pair_apply_left (t := S16x8x32x56x56) (s₁ := S16x7x32x56x56) (s₂ := S16x1x32x56x56) 1 _ _ _ i rfl
    (ix5 (⟨(i 0).val, (i 0).isLt⟩ : Fin 16) (⟨(i 1).val, hs⟩ : Fin 7) (⟨(i 2).val, (i 2).isLt⟩ : Fin 32)
      (⟨(i 3).val, (i 3).isLt⟩ : Fin 56) (⟨(i 4).val, (i 4).isLt⟩ : Fin 56))
    (fun b => match b with | ⟨0, _⟩ => rfl | ⟨1, _⟩ => rfl | ⟨2, _⟩ => rfl | ⟨3, _⟩ => rfl | ⟨4, _⟩ => rfl)).trans ?_
  rw [val_main_v4_apply]
  exact v1_at x _ k (by show (k 0).val = (i 0).val * 8 + (1 + (i 1).val); omega) h1 h2 h3

/-- Frame 7 of the rebuilt first group is zero. -/
theorem v7_last (i : S16x8x32x56x56.Idx) (hs : ¬(i 1).val < 7) : val_main_v7 (F := F) x i = zero := by
  have b1 : (i 1).val < 8 := (i 1).isLt
  unfold val_main_v7
  refine (concatenate_pair_apply_right (t := S16x8x32x56x56) (s₁ := S16x7x32x56x56) (s₂ := S16x1x32x56x56) 1 _ _ _ i rfl rfl
    (ix5 (⟨(i 0).val, (i 0).isLt⟩ : Fin 16) (⟨0, Nat.one_pos⟩ : Fin 1) (⟨(i 2).val, (i 2).isLt⟩ : Fin 32)
      (⟨(i 3).val, (i 3).isLt⟩ : Fin 56) (⟨(i 4).val, (i 4).isLt⟩ : Fin 56))
    (fun b hb => match b, hb with
      | ⟨0, _⟩, _ => rfl | ⟨1, _⟩, hb => absurd rfl hb | ⟨2, _⟩, _ => rfl | ⟨3, _⟩, _ => rfl | ⟨4, _⟩, _ => rfl)
    (by show 0 + 7 = (i 1).val; omega)).trans ?_
  rw [val_main_v6_apply, val_main_cst_apply]

/-! ## The second group, shifted towards the future -/

/-- Frame 0 of the rebuilt second group is zero. -/
theorem v11_first (i : S16x8x32x56x56.Idx) (hs : (i 1).val = 0) : val_main_v11 (F := F) x i = zero := by
  unfold val_main_v11
  refine (concatenate_pair_apply_left (t := S16x8x32x56x56) (s₁ := S16x1x32x56x56) (s₂ := S16x7x32x56x56) 1 _ _ _ i rfl
    (ix5 (⟨(i 0).val, (i 0).isLt⟩ : Fin 16) (⟨(i 1).val, by omega⟩ : Fin 1) (⟨(i 2).val, (i 2).isLt⟩ : Fin 32)
      (⟨(i 3).val, (i 3).isLt⟩ : Fin 56) (⟨(i 4).val, (i 4).isLt⟩ : Fin 56))
    (fun b => match b with | ⟨0, _⟩ => rfl | ⟨1, _⟩ => rfl | ⟨2, _⟩ => rfl | ⟨3, _⟩ => rfl | ⟨4, _⟩ => rfl)).trans ?_
  rw [val_main_v9_apply, val_main_cst_0_apply]

/-- Frame `s > 0` of the rebuilt second group is frame `s - 1` of the group. -/
theorem v11_prev (i : S16x8x32x56x56.Idx) (k : S128x96x56x56.Idx) (hs : ¬(i 1).val = 0)
    (h0 : (k 0).val + 1 = (i 0).val * 8 + (i 1).val) (h1 : (k 1).val = 32 + (i 2).val) (h2 : (k 2).val = (i 3).val)
    (h3 : (k 3).val = (i 4).val) : val_main_v11 (F := F) x i = x k := by
  have b1 : (i 1).val < 8 := (i 1).isLt
  unfold val_main_v11
  refine (concatenate_pair_apply_right (t := S16x8x32x56x56) (s₁ := S16x1x32x56x56) (s₂ := S16x7x32x56x56) 1 _ _ _ i rfl rfl
    (ix5 (⟨(i 0).val, (i 0).isLt⟩ : Fin 16) (⟨(i 1).val - 1, by omega⟩ : Fin 7) (⟨(i 2).val, (i 2).isLt⟩ : Fin 32)
      (⟨(i 3).val, (i 3).isLt⟩ : Fin 56) (⟨(i 4).val, (i 4).isLt⟩ : Fin 56))
    (fun b hb => match b, hb with
      | ⟨0, _⟩, _ => rfl | ⟨1, _⟩, hb => absurd rfl hb | ⟨2, _⟩, _ => rfl | ⟨3, _⟩, _ => rfl | ⟨4, _⟩, _ => rfl)
    (by show (i 1).val - 1 + 1 = (i 1).val; omega)).trans ?_
  rw [val_main_v10_apply]
  exact v2_at x _ k (by show (k 0).val = (i 0).val * 8 + ((i 1).val - 1); omega) h1 h2 h3

/-! ## The three groups joined along the channels -/

/-- The joined array at channel `c < 32` is the rebuilt first group at channel `c`. -/
theorem v12_first (i : S16x8x96x56x56.Idx) (hc : (i 2).val < 32) :
    val_main_v12 (F := F) x i = val_main_v7 (F := F) x (ix5 (⟨(i 0).val, (i 0).isLt⟩ : Fin 16) (⟨(i 1).val, (i 1).isLt⟩ : Fin 8)
      (⟨(i 2).val, hc⟩ : Fin 32) (⟨(i 3).val, (i 3).isLt⟩ : Fin 56) (⟨(i 4).val, (i 4).isLt⟩ : Fin 56)) := by
  unfold val_main_v12
  exact concatenate_apply_piece (t := S16x8x96x56x56) 2 _ _ i 0 (by show (0 : Nat) < 3; omega) S16x8x32x56x56 (val_main_v7 (F := F) x) rfl rfl 0 rfl _
    (fun b hb => match b, hb with
      | ⟨0, _⟩, _ => rfl | ⟨1, _⟩, _ => rfl | ⟨2, _⟩, hb => absurd rfl hb | ⟨3, _⟩, _ => rfl | ⟨4, _⟩, _ => rfl)
    (by show 0 + (i 2).val = (i 2).val; omega)

/-- The joined array at channel `32 ≤ c < 64` is the rebuilt second group at channel `c - 32`. -/
theorem v12_second (i : S16x8x96x56x56.Idx) (hc : ¬(i 2).val < 32) (hc' : (i 2).val < 64) :
    val_main_v12 (F := F) x i = val_main_v11 (F := F) x (ix5 (⟨(i 0).val, (i 0).isLt⟩ : Fin 16) (⟨(i 1).val, (i 1).isLt⟩ : Fin 8)
      (⟨(i 2).val - 32, by omega⟩ : Fin 32) (⟨(i 3).val, (i 3).isLt⟩ : Fin 56) (⟨(i 4).val, (i 4).isLt⟩ : Fin 56)) := by
  unfold val_main_v12
  exact concatenate_apply_piece (t := S16x8x96x56x56) 2 _ _ i 1 (by show (1 : Nat) < 3; omega) S16x8x32x56x56 (val_main_v11 (F := F) x) rfl rfl 32 rfl _
    (fun b hb => match b, hb with
      | ⟨0, _⟩, _ => rfl | ⟨1, _⟩, _ => rfl | ⟨2, _⟩, hb => absurd rfl hb | ⟨3, _⟩, _ => rfl | ⟨4, _⟩, _ => rfl)
    (by show 32 + ((i 2).val - 32) = (i 2).val; omega)

/-- The joined array at channel `64 ≤ c` is the third group at channel `c - 64`. -/
theorem v12_third (i : S16x8x96x56x56.Idx) (hc' : ¬(i 2).val < 64) :
    val_main_v12 (F := F) x i = val_main_v3 (F := F) x (ix5 (⟨(i 0).val, (i 0).isLt⟩ : Fin 16) (⟨(i 1).val, (i 1).isLt⟩ : Fin 8)
      (⟨(i 2).val - 64, by have : (i 2).val < 96 := (i 2).isLt; omega⟩ : Fin 32) (⟨(i 3).val, (i 3).isLt⟩ : Fin 56) (⟨(i 4).val, (i 4).isLt⟩ : Fin 56)) := by
  unfold val_main_v12
  exact concatenate_apply_piece (t := S16x8x96x56x56) 2 _ _ i 2 (by show (2 : Nat) < 3; omega) S16x8x32x56x56 (val_main_v3 (F := F) x) rfl rfl 64 rfl _
    (fun b hb => match b, hb with
      | ⟨0, _⟩, _ => rfl | ⟨1, _⟩, _ => rfl | ⟨2, _⟩, hb => absurd rfl hb | ⟨3, _⟩, _ => rfl | ⟨4, _⟩, _ => rfl)
    (by show 64 + ((i 2).val - 64) = (i 2).val; omega)

/-! ## The result -/

/-- The reference's result is the shift of its argument. -/
theorem ref_eq (hf : Arr.ShapeCasts Rows) (hb : Rows.ShapeCasts Arr) :
    val_main_v13 (F := F) x = shift (zero (F := F)) hf hb x := by
  funext j
  have b0 : (j 0).val < 128 := (j 0).isLt
  have b1 : (j 1).val < 96 := (j 1).isLt
  have b2 : (j 2).val < 56 := (j 2).isLt
  have b3 : (j 3).val < 56 := (j 3).isLt
  rw [val_main_v13_apply]
  -- frame `j 0` is frame `j 0 % 8` of batch `j 0 / 8`; the other coordinates are kept
  have e0 : (idx_main_v13 j 0).val = (j 0).val / 8 := by
    show ((((j 0).val * 96 + (j 1).val) * 56 + (j 2).val) * 56 + (j 3).val) / 2408448 = (j 0).val / 8; omega
  have e1 : (idx_main_v13 j 1).val = (j 0).val % 8 := by
    show ((((j 0).val * 96 + (j 1).val) * 56 + (j 2).val) * 56 + (j 3).val) / 301056 % 8 = (j 0).val % 8; omega
  have e2 : (idx_main_v13 j 2).val = (j 1).val := by
    show ((((j 0).val * 96 + (j 1).val) * 56 + (j 2).val) * 56 + (j 3).val) / 3136 % 96 = (j 1).val; omega
  have e3 : (idx_main_v13 j 3).val = (j 2).val := by
    show ((((j 0).val * 96 + (j 1).val) * 56 + (j 2).val) * 56 + (j 3).val) / 56 % 56 = (j 2).val; omega
  have e4 : (idx_main_v13 j 4).val = (j 3).val := by
    show ((((j 0).val * 96 + (j 1).val) * 56 + (j 2).val) * 56 + (j 3).val) % 56 = (j 3).val; omega
  generalize idx_main_v13 j = I at e0 e1 e2 e3 e4
  by_cases hc : (j 1).val < 32
  · rw [v12_first x I (by omega)]
    by_cases hs : (j 0).val % 8 < 7
    · have hk : (j 0).val + 1 < 128 := by omega
      rw [shift_next zero hf hb x j (ix4 (⟨(j 0).val + 1, hk⟩ : Fin 128) (⟨(j 1).val, b1⟩ : Fin 96) (⟨(j 2).val, b2⟩ : Fin 56) (⟨(j 3).val, b3⟩ : Fin 56))
        hc hs rfl rfl rfl rfl]
      exact v7_next x _ _ (by show (I 1).val < 7; omega) (by show (j 0).val + 1 = (I 0).val * 8 + (I 1).val + 1; omega)
        (by show (j 1).val = (I 2).val; omega) (by show (j 2).val = (I 3).val; omega) (by show (j 3).val = (I 4).val; omega)
    · rw [shift_next_last zero hf hb x j hc hs]
      exact v7_last x _ (by show ¬(I 1).val < 7; omega)
  · by_cases hc' : (j 1).val < 64
    · rw [v12_second x I (by omega) (by omega)]
      by_cases hs : (j 0).val % 8 = 0
      · rw [shift_prev_first zero hf hb x j hc hc' hs]
        exact v11_first x _ (by show (I 1).val = 0; omega)
      · rw [shift_prev zero hf hb x j (ix4 (⟨(j 0).val - 1, by omega⟩ : Fin 128) (⟨(j 1).val, b1⟩ : Fin 96) (⟨(j 2).val, b2⟩ : Fin 56) (⟨(j 3).val, b3⟩ : Fin 56))
          hc hc' hs (by show (j 0).val - 1 + 1 = (j 0).val; omega) rfl rfl rfl]
        exact v11_prev x _ _ (by show ¬(I 1).val = 0; omega) (by show (j 0).val - 1 + 1 = (I 0).val * 8 + (I 1).val; omega)
          (by show (j 1).val = 32 + ((I 2).val - 32); omega) (by show (j 2).val = (I 3).val; omega) (by show (j 3).val = (I 4).val; omega)
    · rw [v12_third x I (by omega), shift_same zero hf hb x j hc hc']
      exact v3_at x _ j (by show (j 0).val = (I 0).val * 8 + (I 1).val; omega) (by show (j 1).val = 64 + ((I 2).val - 64); omega)
        (by show (j 2).val = (I 3).val; omega) (by show (j 3).val = (I 4).val; omega)

end Cert.ReferenceIdeal.ShiftValue

end
-- ==== Proof.lean ====
/-
  The temporal channel shift: the kernel against its jnp reference.

  The argument is 128 frames (16 batches of 8 consecutive frames) of 96 channels of 56 x 56 values.  Both programs compute,
  with r = 8 b + s (frame s of batch b):
    channels 0..31  at frame r : the argument's frame r + 1 when s < 7, zero when s = 7   (the next frame of the batch);
    channels 32..63 at frame r : zero when s = 0, the argument's frame r - 1 otherwise    (the previous frame of the batch);
    channels 64..95 at frame r : the argument's frame r                                    (unchanged).
  This function is `Cert.Shift.shift` (Proof/Spec.lean).  Neither program does any arithmetic on the values: each entry of
  the result is an entry of the argument or the zero both programs write, the float whose word is zero.  So the two results
  are equal entry by entry for every argument, finite or not, and the precondition is not used.

  The kernel flattens each frame to a row of 301056 values and gives each of 16 grid points one batch (8 rows); the body
  makes five rectangular stores that tile the batch, each the restriction of the shift of the batch (Proof/BlockValue.lean);
  the 16 batches cover the rows, so the output rows end at the shift of the rows, which the program reshapes back
  (Proof/ArrayValue.lean).  The reference batches the frames by a reshape, cuts the channels into three groups, rebuilds each
  by slices and concatenations with a frame of zeros, joins them and reshapes back (Proof/RefValue.lean).

  The idealized kernel is the kernel's own text read over the extended reals (no rewrite was made), so `preserves` asks nothing.
-/
import proofs.«138106_j75196287418795_2_alg».proof.Defs
import proofs.«138106_j75196287418795_2_alg».proof.Proof.Gen.Kernel
import proofs.«138106_j75196287418795_2_alg».proof.Proof.Gen.Kernel.Skeleton
import proofs.«138106_j75196287418795_2_alg».proof.Proof.Gen.Kernel.Launch
import proofs.«138106_j75196287418795_2_alg».proof.Proof.Gen.Kernel.Points
import proofs.«138106_j75196287418795_2_alg».proof.Proof.Gen.Kernel.Frame
import proofs.«138106_j75196287418795_2_alg».proof.Proof.Gen.KernelIdeal
import proofs.«138106_j75196287418795_2_alg».proof.Proof.Gen.KernelIdeal.Skeleton
import proofs.«138106_j75196287418795_2_alg».proof.Proof.Gen.KernelIdeal.Launch
import proofs.«138106_j75196287418795_2_alg».proof.Proof.Gen.KernelIdeal.Points
import proofs.«138106_j75196287418795_2_alg».proof.Proof.Gen.KernelIdeal.Frame
import proofs.«138106_j75196287418795_2_alg».proof.Proof.Gen.ReferenceIdeal
import proofs.«138106_j75196287418795_2_alg».proof.Proof.Gen.ReferenceIdeal.Read
import proofs.«138106_j75196287418795_2_alg».proof.Proof.Gen.Pre_finite_inputs
import proofs.«138106_j75196287418795_2_alg».proof.Proof.ArrayValue
import proofs.«138106_j75196287418795_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs, and leaves its argument as it was: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the idealized reading. -/
theorem preserves : Cert.preserves_Kernel_KernelIdeal := trivial

/-- From memories that agree on the argument, both programs end with the shift of the argument in their result buffers. -/
theorem algebraic : Cert.algebraic_KernelIdeal_ReferenceIdeal := by
  intro m ρ m' ρ' _ hagree
  refine ⟨fun c => Cert.KernelIdeal.ShiftValue.result (F := Ideal) (m ((c : Thread Cert.KernelIdeal.nD Cert.KernelIdeal.τ).loc Cert.KernelIdeal.main_arg0)),
    Cert.KernelIdeal.ShiftValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, hagree c]
  exact Cert.ReferenceIdeal.ShiftValue.ref_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
